-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x1, .f32⟩
  | .hbm, ⟨3, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v68 : BitVec 1 := Scalar.cmpi .eq arg0 c31_i32
  let v69 : BitVec 32 := Scalar.extui v68
  let c0_i32_27 : BitVec 32 := 0#32
  let v70 : BitVec 1 := Scalar.cmpi .ne v69 c0_i32_27
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  natLt_1_32 : 1 < 32
  reduces_S256x4096_S256 : S256x4096.Reduces [1] S256
  shapeCasts_S256_S256x1 : S256.ShapeCasts S256x1
  broadcasts_S256x1_S256x4096 : S256x1.Broadcasts S256x4096
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .i1⟩
  | .hbm, ⟨3, _⟩ => ⟨S8192x4096, .i1⟩
  | .hbm, ⟨4, _⟩ => ⟨S8192x4096, .i32⟩
  | .hbm, ⟨5, _⟩ => ⟨S_, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192, .f32⟩
  | .hbm, ⟨63, _⟩ => ⟨S8192, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_call2_cst : Ref sig .tc := ⟨.hbm, 24, rfl⟩
abbrev main_call2_v0 : Ref sig .tc := ⟨.hbm, 25, rfl⟩
abbrev main_call2_cst_0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_cst_1 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_v12 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_4 : Ref sig .tc := ⟨.hbm, 57, rfl⟩
abbrev main_call4_v0 : Ref sig .tc := ⟨.hbm, 58, rfl⟩
abbrev main_call4_v1 : Ref sig .tc := ⟨.hbm, 59, rfl⟩
abbrev main_v17 : Ref sig .tc := ⟨.hbm, 60, rfl⟩
abbrev main_cst_5 : Ref sig .tc := ⟨.hbm, 61, rfl⟩
abbrev main_v18 : Ref sig .tc := ⟨.hbm, 62, rfl⟩
abbrev main_v19 : Ref sig .tc := ⟨.hbm, 63, rfl⟩
abbrev main_c_6 : Ref sig .tc := ⟨.hbm, 64, rfl⟩
abbrev main_v20 : Ref sig .tc := ⟨.hbm, 65, rfl⟩
abbrev main_cst_7 : Ref sig .tc := ⟨.hbm, 66, rfl⟩
abbrev main_call5_v0 : Ref sig .tc := ⟨.hbm, 67, rfl⟩
abbrev main_call5_v1 : Ref sig .tc := ⟨.hbm, 68, rfl⟩
abbrev main_v21 : Ref sig .tc := ⟨.hbm, 69, rfl⟩
abbrev main_cst_8 : Ref sig .tc := ⟨.hbm, 70, rfl⟩
abbrev main_v22 : Ref sig .tc := ⟨.hbm, 71, rfl⟩
abbrev main_c_9 : Ref sig .tc := ⟨.hbm, 72, rfl⟩
abbrev main_v23 : Ref sig .tc := ⟨.hbm, 73, rfl⟩
abbrev main_c_10 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_11 : Ref sig .tc := ⟨.hbm, 78, rfl⟩
abbrev main_call6_v0 : Ref sig .tc := ⟨.hbm, 79, rfl⟩
abbrev main_v27 : Ref sig .tc := ⟨.hbm, 80, rfl⟩

abbrev nD : Nat := 1
abbrev τ : Topo := Topo.v7x

variable {F : FTy → Type} [FloatOps F]

class Facts₀ : Prop where
  natLt_1_32 : 1 < 32
  reducesTo_S8192x4096_S8192_d1 : S8192x4096.ReducesTo [1] S8192
  h_S_ : 0 < S_.numel
  bcast_S_S8192 : S_.BroadcastsInDim S8192 (![] : Fin 0 → Fin S8192.rank)
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192_S_d0 : S8192.ReducesTo [0] S_

variable [Facts₀]

class Facts : Prop extends Facts₀ where

variable [Facts]
-- ==== Proof.Spec.lean ====
/-
  The loss both programs compute, as one function of the two argument arrays over the extended reals.

  For a row x of n extended reals let M = max over the row (the fold of max from -∞), S = ∑ₖ exp(xₖ - M).
  The log-softmax of the row at j is written in two arrangements:
      (xⱼ - M) - log S          -- subtract the maximum, then the logarithm of the sum
      xⱼ - (log S + M)          -- subtract the log-sum-exp  log S + M  in one step
  For a row of real numbers the two agree (M and log S are then real); that law is proved elsewhere.
  With p, t the log-softmax of a row of predictions and of targets, the row's divergence is
      ∑ⱼ exp(tⱼ) · (tⱼ - pⱼ),
  and the loss is the sum of the 8192 rows' divergences divided by 8192.
-/
import Idealize.ShloMosaic.PureOps.Ideal
import Idealize.ShloMosaic.Lib.ValueIdx

noncomputable section

open scoped BigOperators

namespace Cert.Spec

open Idealize.ShloMosaic Idealize.ShloMosaic.ValueIdx

variable {n : ℕ}

/-- The maximum of a row: the fold of `max` from -∞ over its entries. -/
def rowMax (x : Fin n → EReal) : EReal := (Finset.univ : Finset (Fin n)).fold max (⊥ : EReal) x

/-- The sum over the row of exp(xₖ - M), M the row's maximum. -/
def rowSumExp (x : Fin n → EReal) : EReal := ∑ k : Fin n, Ideal.exp (x k - rowMax x)

/-- Log-softmax, first arrangement: (xⱼ - M) - log S. -/
def logSoftmax (x : Fin n → EReal) (j : Fin n) : EReal := (x j - rowMax x) - Ideal.log (rowSumExp x)

/-- Log-softmax, second arrangement: xⱼ - (log S + M). -/
def logSoftmax' (x : Fin n → EReal) (j : Fin n) : EReal := x j - (Ideal.log (rowSumExp x) + rowMax x)

/-- A row's divergence ∑ⱼ exp(tⱼ)·(tⱼ - pⱼ) over the first arrangement. -/
def klRow (p t : Fin n → EReal) : EReal :=
  ∑ j : Fin n, Ideal.exp (logSoftmax t j) * (logSoftmax t j - logSoftmax p j)

/-- The same over the second arrangement. -/
def klRow' (p t : Fin n → EReal) : EReal :=
  ∑ j : Fin n, Ideal.exp (logSoftmax' t j) * (logSoftmax' t j - logSoftmax' p j)

/-- Row r of a two-dimensional array. -/
def row {R C : ℕ} (A : (⟨2, ![R, C]⟩ : Shape).Idx → EReal) (r : Fin R) : Fin C → EReal := fun j => A (ix2 r j)

/-- The loss: the sum of the 8192 rows' divergences, divided by 8192. -/
def loss (P T : (⟨2, ![8192, 4096]⟩ : Shape).Idx → EReal) : EReal :=
  Ideal.div (∑ r : Fin 8192, klRow (row P r) (row T r)) ((8192 : ℝ) : EReal)

end Cert.Spec

end
-- ==== Proof.RefLoss.lean ====
/-
  The reference program computes the loss of the specification.

  Read one operation at a time, the reference does this to its two argument arrays P (predictions) and T (targets):
    * the mask "T is not different from itself" is true at every entry (over the extended reals x ≠ x never holds),
      so every select on it keeps its first branch; the count of true entries in a row is 4096, which exceeds 1, so
      every row is kept, and the count of kept rows is 8192, which exceeds 0;
    * each array is divided by the word 0x3F800000, which denotes 1: x / 1 = x for every extended real;
    * the log-softmax of a row x: M = the fold of max from the word 0xFF800000 (which denotes -∞) over the row, then
      max(-∞, M) = M; then xⱼ - M, its exponential, the row sum 0 + ∑ₖ exp(xₖ - M), its logarithm, and
      (xⱼ - M) - log(∑ₖ exp(xₖ - M)): the first arrangement of the specification;
    * with p, t the log-softmax of row r of P and of T: exp(tⱼ)·(tⱼ - pⱼ), summed over the row from 0;
    * the 8192 row values summed from 0, divided by the count 8192 converted to a real number.
-/
import proofs.«164157_j73057393705013_1_alg».proof.Proof.RefReadP
import proofs.«164157_j73057393705013_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.RefLoss

open Cert.ReferenceIdeal Cert.ReferenceIdeal.Gen Cert.ReferenceIdeal.ReadP Cert.Spec
open Idealize.ShloMosaic Idealize.ShloMosaic.ValueIdx Idealize.SL.Sem

/-! ## Words and small laws -/

/-- The word 0x3F800000 denotes 1. -/
theorem word_one : Ideal.ofBits .f32 0x3F800000#32 = ((1 : ℝ) : EReal) := by
  simp [Ideal.ofBits, Ideal.ieee]
  rw [← EReal.coe_mul]
  norm_num

/-- The word 0xFF800000 denotes -∞. -/
theorem word_neg_inf : Ideal.ofBits .f32 0xFF800000#32 = (⊥ : EReal) := by
  simp [Ideal.ofBits, Ideal.ieee]

/-- Every extended real divided by 1 is itself. -/
theorem div_one (x : EReal) : Ideal.div x ((1 : ℝ) : EReal) = x := by
  rw [Ideal.div_coe one_ne_zero]
  norm_num

/-- Adding n ones from zero, in 32-bit words, gives the word of n. -/
theorem fold_addi_ones {ι : Type*} (s : Finset ι) :
    s.fold IntOp.addi 0#32 (fun _ => 1#32) = BitVec.ofNat 32 s.card := by
  classical
  induction s using Finset.induction_on with
  | empty => rfl
  | insert a s ha ih =>
    rw [Finset.fold_insert ha, ih, Finset.card_insert_of_notMem ha]
    show BitVec.ofNat 32 1 + BitVec.ofNat 32 s.card = BitVec.ofNat 32 (s.card + 1)
    rw [← BitVec.ofNat_add, Nat.add_comm]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The two reductions' shapes -/

theorem red_row : S8192x4096.Reduces [1] S8192 := by decide

/-- Row index r with column k put back is (r, k). -/
theorem lift_row (r : Fin 8192) (k : Fin (S8192x4096.size 1)) :
    red_row.lift (ix1 r) k = ix2 r (⟨k.val, k.isLt⟩ : Fin 4096) := by
  funext c; apply Fin.ext
  fin_cases c <;> rfl

variable (x0 x1 : (⟨S8192x4096, .f32⟩ : BufTy).Contents (Elt Ideal))

/-! ## The masks and the counts -/

/-- The mask "the target is not different from itself" is true everywhere. -/
theorem v1_at (i : S8192x4096.Idx) : val_main_v1 (F := Ideal) x1 i = 1#1 := by
  rw [val_main_v1_apply, val_main_v0_apply, Ideal.cmpf_def]
  have h : Ideal.cmp .une (x1 i) (x1 i) = 0#1 := by simp [Ideal.cmp]
  rw [h]; rfl

theorem v2_at (i : S8192x4096.Idx) : val_main_v2 (F := Ideal) x1 i = 1#32 := by
  rw [val_main_v2_apply, v1_at]; rfl

/-- The count of true entries in a row is 4096. -/
theorem v3_at (r : Fin 8192) : val_main_v3 (F := Ideal) x1 (ix1 r) = 4096#32 := by
  unfold val_main_v3
  rw [Host.reduce_eq_fold_single IntOp.addi _ _ reducesTo_S8192x4096_S8192_d1 red_row h_S_]
  have hf : (val_main_v2 (F := Ideal) x1 ∘ red_row.lift (ix1 r)) = fun _ => 1#32 := funext fun k => v2_at x1 _
  rw [hf, val_main_c_apply, fold_addi_ones, Finset.card_univ]
  exact congrArg (BitVec.ofNat 32) (Fintype.card_fin 4096)

/-- Every row is kept: its count exceeds 1. -/
theorem v5_at (r : Fin 8192) : val_main_v5 (F := Ideal) x1 (ix1 r) = 1#1 := by
  rw [val_main_v5_apply, v3_at, val_main_v4_apply, val_main_c_0_apply]; decide

theorem v5_all (i : S8192.Idx) : val_main_v5 (F := Ideal) x1 i = 1#1 := by
  rw [eq_ix1 i]; exact v5_at x1 _

theorem v19_all (i : S8192.Idx) : val_main_v19 (F := Ideal) x1 i = 1#32 := by
  rw [val_main_v19_apply, v5_all]; rfl

/-- The count of kept rows is 8192. -/
theorem v20_at (i : S_.Idx) : val_main_v20 (F := Ideal) x1 i = 8192#32 := by
  unfold val_main_v20
  rw [Host.reduce_eq_fold IntOp.addi _ _ reducesTo_S8192_S_d0 h_S_]
  have hf : val_main_v19 (F := Ideal) x1 = fun _ => 1#32 := funext fun k => v19_all x1 k
  rw [hf, val_main_c_6_apply, fold_addi_ones,
    Finset.filter_true_of_mem (fun j _ => funext fun b => b.elim0), Finset.card_univ,
    Fintype.card_congr (idxEquiv1 (n := 8192))]
  exact congrArg (BitVec.ofNat 32) (Fintype.card_fin 8192)

/-! ## The division by one -/

theorem v8_eq : val_main_v8 (F := Ideal) x0 x1 = x0 := by
  funext i
  rw [val_main_v8_apply, val_main_v6_apply, v1_at, select_one, val_main_v7_apply, val_main_cst_1_apply,
    Ideal.hostDivf_def, Ideal.ofBits_def, word_one, div_one]

theorem v11_eq : val_main_v11 (F := Ideal) x1 = x1 := by
  funext i
  rw [val_main_v11_apply, val_main_v9_apply, v1_at, select_one, val_main_v10_apply, val_main_cst_3_apply,
    Ideal.hostDivf_def, Ideal.ofBits_def, word_one, div_one]

/-! ## The row maximum -/

/-- The fold of the maximum from -∞ over row r of an array is the row's maximum. -/
theorem rowmax_stage (y : (⟨S8192x4096, .f32⟩ : BufTy).Contents (Elt Ideal)) (init : (⟨S_, .f32⟩ : BufTy).Contents (Elt Ideal))
    (hinit : init (Shape.Idx.first h_S_) = (⊥ : EReal)) (r : Fin 8192) :
    Host.reduce (FloatOps.maximumf (F := Ideal) (φ := .f32)) y init reducesTo_S8192x4096_S8192_d1 h_S_ (ix1 r)
      = rowMax (row y r) := by
  refine (Host.reduce_eq_fold_single (FloatOps.maximumf (F := Ideal) (φ := .f32)) y init
    reducesTo_S8192x4096_S8192_d1 red_row h_S_ (ix1 r)).trans ?_
  rw [hinit]
  have hf : (y ∘ red_row.lift (ix1 r)) = fun k : Fin 4096 => y (ix2 r k) :=
    funext fun k => congrArg y (lift_row r k)
  exact congrArg (fun f => Finset.fold max (⊥ : EReal) f (Finset.univ : Finset (Fin 4096))) hf

/-! ## The log-softmax of the predictions (first call) -/

theorem idx_col_row (r : Fin 8192) (j : Fin 4096) :
    idx_main_call2_v3 (idx_main_call2_v4 (ix2 r j)) = ix1 r :=
  funext fun a => Fin.ext (by match a with | ⟨0, _⟩ => rfl)

/-- The row maximum, after the maximum with -∞. -/
theorem call2_v2_at (r : Fin 8192) : val_main_call2_v2 (F := Ideal) x0 x1 (ix1 r) = rowMax (row x0 r) := by
  rw [val_main_call2_v2_apply, val_main_call2_v1_apply, val_main_call2_cst_0_apply]
  unfold val_main_call2_v0
  rw [v8_eq, rowmax_stage x0 _ (by rw [val_main_call2_cst_apply, Ideal.ofBits_def, word_neg_inf]) r,
    Ideal.maximumf_def, Ideal.ofBits_def, word_neg_inf]
  exact max_eq_right bot_le

/-- The entry less the row maximum. -/
theorem call2_v5_at (r : Fin 8192) (j : Fin 4096) :
    val_main_call2_v5 (F := Ideal) x0 x1 (ix2 r j) = x0 (ix2 r j) - rowMax (row x0 r) := by
  rw [val_main_call2_v5_apply, val_main_call2_v4_apply, val_main_call2_v3_apply, idx_col_row, call2_v2_at, v8_eq,
    Ideal.subf_def]

/-- The row sum of the exponentials. -/
theorem call2_v7_at (r : Fin 8192) : val_main_call2_v7 (F := Ideal) x0 x1 (ix1 r) = rowSumExp (row x0 r) := by
  rw [val_main_call2_v7_apply, val_main_call2_cst_1_apply, Ideal.ofBits_def, Ideal.ofBits_zero_f32, zero_add]
  unfold rowSumExp
  refine Finset.sum_congr rfl fun k _ => ?_
  have hidx : idx_main_call2_v7 (ix1 r) k = ix2 r k :=
    funext fun a => Fin.ext (by match a with | ⟨0, _⟩ => rfl | ⟨1, _⟩ => rfl)
  rw [hidx, val_main_call2_v6_apply, call2_v5_at, Ideal.hostUnary_exp_def]
  rfl

/-- The first call's result is the log-softmax of the predictions' row. -/
theorem v12_at (r : Fin 8192) (j : Fin 4096) :
    val_main_v12 (F := Ideal) x0 x1 (ix2 r j) = logSoftmax (row x0 r) j := by
  have hidx : idx_main_call2_v8 (idx_main_call2_v10 (ix2 r j)) = ix1 r :=
    funext fun a => Fin.ext (by match a with | ⟨0, _⟩ => rfl)
  rw [val_main_v12_apply, call2_v5_at, val_main_call2_v10_apply, val_main_call2_v9_apply, val_main_call2_v8_apply,
    hidx, call2_v7_at, Ideal.hostUnary_log_def, Ideal.subf_def]
  rfl

/-! ## The log-softmax of the targets (second call) -/

theorem call3_v2_at (r : Fin 8192) : val_main_call3_v2 (F := Ideal) x1 (ix1 r) = rowMax (row x1 r) := by
  rw [val_main_call3_v2_apply, val_main_call3_v1_apply, val_main_call3_cst_0_apply]
  unfold val_main_call3_v0
  rw [v11_eq, rowmax_stage x1 _ (by rw [val_main_call3_cst_apply, Ideal.ofBits_def, word_neg_inf]) r,
    Ideal.maximumf_def, Ideal.ofBits_def, word_neg_inf]
  exact max_eq_right bot_le

theorem call3_v5_at (r : Fin 8192) (j : Fin 4096) :
    val_main_call3_v5 (F := Ideal) x1 (ix2 r j) = x1 (ix2 r j) - rowMax (row x1 r) := by
  have hidx : idx_main_call3_v3 (idx_main_call3_v4 (ix2 r j)) = ix1 r :=
    funext fun a => Fin.ext (by match a with | ⟨0, _⟩ => rfl)
  rw [val_main_call3_v5_apply, val_main_call3_v4_apply, val_main_call3_v3_apply, hidx, call3_v2_at, v11_eq,
    Ideal.subf_def]

theorem call3_v7_at (r : Fin 8192) : val_main_call3_v7 (F := Ideal) x1 (ix1 r) = rowSumExp (row x1 r) := by
  rw [val_main_call3_v7_apply, val_main_call3_cst_1_apply, Ideal.ofBits_def, Ideal.ofBits_zero_f32, zero_add]
  unfold rowSumExp
  refine Finset.sum_congr rfl fun k _ => ?_
  have hidx : idx_main_call3_v7 (ix1 r) k = ix2 r k :=
    funext fun a => Fin.ext (by match a with | ⟨0, _⟩ => rfl | ⟨1, _⟩ => rfl)
  rw [hidx, val_main_call3_v6_apply, call3_v5_at, Ideal.hostUnary_exp_def]
  rfl

/-- The second call's result is the log-softmax of the targets' row. -/
theorem v13_at (r : Fin 8192) (j : Fin 4096) :
    val_main_v13 (F := Ideal) x1 (ix2 r j) = logSoftmax (row x1 r) j := by
  have hidx : idx_main_call3_v8 (idx_main_call3_v10 (ix2 r j)) = ix1 r :=
    funext fun a => Fin.ext (by match a with | ⟨0, _⟩ => rfl)
  rw [val_main_v13_apply, call3_v5_at, val_main_call3_v10_apply, val_main_call3_v9_apply, val_main_call3_v8_apply,
    hidx, call3_v7_at, Ideal.hostUnary_log_def, Ideal.subf_def]
  rfl

/-! ## The divergence of a row, and the mean over the rows -/

/-- One term of a row's divergence: exp(tⱼ)·(tⱼ - pⱼ). -/
theorem v17_at (r : Fin 8192) (j : Fin 4096) :
    val_main_v17 (F := Ideal) x0 x1 (ix2 r j)
      = Ideal.exp (logSoftmax (row x1 r) j) * (logSoftmax (row x1 r) j - logSoftmax (row x0 r) j) := by
  rw [val_main_v17_apply, v1_at, select_one, val_main_v16_apply, val_main_v14_apply, val_main_v15_apply, v13_at, v12_at,
    Ideal.hostUnary_exp_def, Ideal.mulf_def, Ideal.subf_def]

/-- The sum over a row is the row's divergence. -/
theorem v18_at (r : Fin 8192) : val_main_v18 (F := Ideal) x0 x1 (ix1 r) = klRow (row x0 r) (row x1 r) := by
  rw [val_main_v18_apply, val_main_cst_5_apply, Ideal.ofBits_def, Ideal.ofBits_zero_f32, zero_add]
  unfold klRow
  refine Finset.sum_congr rfl fun k _ => ?_
  have hidx : idx_main_v18 (ix1 r) k = ix2 r k :=
    funext fun a => Fin.ext (by match a with | ⟨0, _⟩ => rfl | ⟨1, _⟩ => rfl)
  rw [hidx, v17_at]

theorem v21_at (r : Fin 8192) : val_main_v21 (F := Ideal) x0 x1 (ix1 r) = klRow (row x0 r) (row x1 r) := by
  rw [val_main_v21_apply, v5_at, select_one, v18_at]

/-- The sum of the 8192 rows' divergences. -/
theorem v22_at (i : S_.Idx) :
    val_main_v22 (F := Ideal) x0 x1 i = ∑ r : Fin 8192, klRow (row x0 r) (row x1 r) := by
  rw [val_main_v22_apply, val_main_cst_8_apply, Ideal.ofBits_def, Ideal.ofBits_zero_f32, zero_add, sum_idx1]
  exact Finset.sum_congr rfl fun r _ => v21_at x0 x1 r

/-- The count of rows, converted: the real number 8192. -/
theorem v25_at (i : S_.Idx) : val_main_v25 (F := Ideal) x1 i = ((8192 : ℝ) : EReal) := by
  rw [val_main_v25_apply, val_main_v24_apply, v20_at, val_main_c_10_apply]
  have h : IntOp.maxsi 8192#32 1#32 = 8192#32 := by decide
  rw [h]
  show (((8192#32 : BitVec 32).toInt : ℝ) : EReal) = ((8192 : ℝ) : EReal)
  have ht : (8192#32 : BitVec 32).toInt = 8192 := by decide
  rw [ht]; norm_num

/-- The reference computes the loss of the specification. -/
theorem ref_loss (x0 x1 : (⟨Cert.ReferenceIdeal.S8192x4096, .f32⟩ : BufTy).Contents (Elt Ideal)) :
    Cert.ReferenceIdeal.ReadP.val_main_v27 (F := Ideal) x0 x1 = fun _ => Cert.Spec.loss x0 x1 := by
  funext i
  have h23 : val_main_v23 (F := Ideal) x1 i = 1#1 := by
    rw [val_main_v23_apply, v20_at, val_main_c_9_apply]; decide
  rw [val_main_v27_apply, h23, select_one, val_main_v26_apply, v22_at, v25_at, Ideal.hostDivf_def]
  rfl

end Cert.RefLoss

end
-- ==== Proof.FiniteInputs.lean ====
/-
  The precondition, read back: every entry of both argument arrays is a real number.

  The precondition computes, for each of the two arrays x, the conjunction over all entries of |x| < +∞
  (the absolute value as max x (-x), the bound the word whose value is +∞), and the conjunction of the two
  results; it is stated to be 1. A conjunction of two one-bit words is 1 exactly when both are 1; a
  conjunction over all entries, into a result of one index, that is 1 had a 1 at every entry; and
  max x (-x) < +∞ fails at x = +∞ and at x = -∞ (both give +∞), so x is a real number.
-/
import proofs.«164157_j73057393705013_1_alg».proof.Pre_finite_inputs
import Idealize.ShloMosaic.Lib.ReduceAll
import Idealize.ShloMosaic.PureOps.Ideal.Laws

noncomputable section

namespace Cert.FiniteInputs

open Idealize.ShloMosaic Cert.Pre_finite_inputs

/-- The word 0x7F800000 denotes +∞. -/
theorem inf_word : Ideal.ofBits .f32 0x7F800000#32 = ⊤ := by simp [Ideal.ofBits, Ideal.ieee]

/-- An extended real whose absolute value max x (-x) is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The shape with no axes has one index. -/
theorem subsingleton_idx : Subsingleton S_.Idx := ⟨fun a b => funext fun d => d.elim0⟩

/-- An entry at which the comparison |x| < +∞ is 1 is a real number. -/
theorem real_of_entry [Cert.Pre_finite_inputs.Facts] (x : FVec Ideal S8192x4096 .f32) (i : S8192x4096.Idx)
    (a : cmpf CmpFPredicate.olt (Host.absf x)
        (broadcastInDim S8192x4096 ![] Facts.bcast_S_S8192x4096 (constant S_ FTy.f32 0x7F800000#32)) i = 1#1) :
    ∃ r : ℝ, x i = (r : EReal) := by
  change Ideal.cmp .olt (max (x i) (-(x i))) (Ideal.ofBits .f32 0x7F800000#32) = 1#1 at a
  rw [inf_word] at a
  exact real_of_abs_lt_top (x i) a

/-- The precondition says every entry of both arrays is a real number. -/
theorem real_of_pre [Cert.Pre_finite_inputs.Facts] (x0 x1 : FVec Ideal Cert.Pre_finite_inputs.S8192x4096 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h (fun a => a.elim0)
  dsimp only [Cert.Pre_finite_inputs.fn] at e
  obtain ⟨e0, e1⟩ := IntOp.andi_eq_one.1 e
  haveI : Subsingleton S_.Idx := subsingleton_idx
  exact ⟨fun i => real_of_entry x0 i (Host.reduce_andi_all _ _ _ _ _ e0 i),
    fun i => real_of_entry x1 i (Host.reduce_andi_all _ _ _ _ _ e1 i)⟩

end Cert.FiniteInputs

end
-- ==== Proof.Pieces.lean ====
import proofs.«164157_j73057393705013_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves in the two running totals it keeps between grid points (the sum of
    the row divergences so far, and the count of rows so far) and, at the last point, in the result block:
    each is the body's pure arithmetic applied to the point's two input blocks and to the totals the point found.
    At the first point the totals found are the zeros the body has just stored. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the divergence total becomes the block's sum added to the zero just stored. -/
theorem total_first (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S256x4096 .f32) :
    sout0_A_0 c i arg1 harg1 arg2 harg2 arg3 harg3 arg4 harg4 arg5 harg5 hc0 hc1 x0 x1 = k0_pay1 (k0_pay6 x1) (k0_pay7 x1) (k0_pay8 x1) (k0_pay9 x0 x1) (k0_pay10 x1) (k0_pay4 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S1x1) hz, View.ld_unit_zero (S := S256x4096) hz]

/-- First point: the row count becomes the block's count added to the zero just stored. -/
theorem count_first (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S256x4096 .f32) :
    sout0_A_1 c i arg1 harg1 arg2 harg2 arg3 harg3 arg4 harg4 arg5 harg5 hc0 hc1 x0 x1 = k0_pay2 (k0_pay7 x1) (k0_pay5 (F := F)) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S1x1) hz, View.ld_unit_zero (S := S256x4096) hz]

/-- A middle point: the divergence total found, plus the block's sum. -/
theorem total_mid (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S256x4096 .f32) (xs0 xs1 : Vec F S1x1 .f32) :
    sout0_B_0 c i arg1 harg1 arg2 harg2 arg3 harg3 arg4 harg4 arg5 harg5 hc0 hc1 x0 x1 xs0 xs1 = k0_pay1 (k0_pay6 x1) (k0_pay7 x1) (k0_pay8 x1) (k0_pay9 x0 x1) (k0_pay10 x1) xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg4.read_unread, harg5.read_unread,
    View.ld_unit_zero (S := S1x1) hz, View.ld_unit_zero (S := S256x4096) hz]

/-- A middle point: the row count found, plus the block's count. -/
theorem count_mid (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S256x4096 .f32) (xs0 xs1 : Vec F S1x1 .f32) :
    sout0_B_1 c i arg1 harg1 arg2 harg2 arg3 harg3 arg4 harg4 arg5 harg5 hc0 hc1 x0 x1 xs0 xs1 = k0_pay2 (k0_pay7 x1) xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg4.read_unread, harg5.read_unread,
    View.ld_unit_zero (S := S1x1) hz, View.ld_unit_zero (S := S256x4096) hz]

/-- The last point updates the two totals as a middle point does … -/
theorem total_last (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S256x4096 .f32) (xs0 xs1 : Vec F S1x1 .f32) :
    sout0_C_0 c i arg1 harg1 arg2 harg2 arg3 harg3 arg4 harg4 arg5 harg5 hc0 hc1 x0 x1 xs0 xs1 = k0_pay1 (k0_pay6 x1) (k0_pay7 x1) (k0_pay8 x1) (k0_pay9 x0 x1) (k0_pay10 x1) xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread, harg5.read_unread,
    View.ld_unit_zero (S := S1x1) hz, View.ld_unit_zero (S := S256x4096) hz]

theorem count_last (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S256x4096 .f32) (xs0 xs1 : Vec F S1x1 .f32) :
    sout0_C_1 c i arg1 harg1 arg2 harg2 arg3 harg3 arg4 harg4 arg5 harg5 hc0 hc1 x0 x1 xs0 xs1 = k0_pay2 (k0_pay7 x1) xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread, harg5.read_unread,
    View.ld_unit_zero (S := S1x1) hz, View.ld_unit_zero (S := S256x4096) hz]

/-- … and stores, as the result block, the guarded quotient of the two updated totals. -/
theorem result_last (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S256x4096 .f32) (xs0 xs1 : Vec F S1x1 .f32) :
    out0_C_2 c i arg1 harg1 arg2 harg2 arg3 harg3 arg4 harg4 arg5 harg5 hc0 hc1 x0 x1 xs0 xs1 = k0_pay3 (k0_pay2 (k0_pay7 x1) xs1) (k0_pay1 (k0_pay6 x1) (k0_pay7 x1) (k0_pay8 x1) (k0_pay9 x0 x1) (k0_pay10 x1) xs0) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread, harg5.read_unread,
    View.ld_unit_zero (S := S1x1) hz, View.ld_unit_zero (S := S256x4096) hz]
  rw [View.readCov_unit_zero (S := S1x1) arg5.view hz, View.readCov_unit_zero (S := S1x1) arg4.view hz]

end Cert.KernelIdeal.Pieces

end
-- ==== Proof.Totals.lean ====
/-
  The two running totals the body keeps between grid points, as a recursion over the points.

  At every point the body adds to the first total the sum, over the 256 rows of the point's block, of the rows'
  divergences, and to the second the number of those rows; the first point starts both from zero. What the generated
  run records point by point is exactly this recursion, and at the last point the result block is the guarded quotient
  of the two totals after that point.
-/
import proofs.«164157_j73057393705013_1_alg».proof.Proof.Pieces

noncomputable section

open Idealize.ShloMosaic Idealize.ShloMosaic.TcCoe Idealize.SL.Sem

namespace Cert.KernelIdeal.Totals

open Cert.KernelIdeal Cert.KernelIdeal.Gen Cert.KernelIdeal.Pieces

variable {F : FTy → Type} [FloatOps F]
variable (m : (ℓ : Loc nD τ sig) → Buf (Elt F) ℓ)

/-- A total `acc` plus the sum of the row divergences of the block (x0: predictions, x1: targets). -/
abbrev addBlock (x0 x1 : Vec F S256x4096 .f32) (acc : Vec F S1x1 .f32) : Vec F S1x1 .f32 :=
  k0_pay1 (k0_pay6 x1) (k0_pay7 x1) (k0_pay8 x1) (k0_pay9 x0 x1) (k0_pay10 x1) acc

/-- A count `n` plus the number of the block's rows that take part. -/
abbrev addCount (x1 : Vec F S256x4096 .f32) (n : Vec F S1x1 .f32) : Vec F S1x1 .f32 :=
  k0_pay2 (k0_pay7 x1) n

/-- The two totals after point `n`: from zero at the first point, one block added per point. -/
def totals (c : Dev nD) : (n : ℕ) → n < cfg0.N → Vec F S1x1 .f32 × Vec F S1x1 .f32
  | 0, h => (addBlock (iblk m c 0 ⟨0, h⟩) (iblk m c 1 ⟨0, h⟩) (k0_pay4 (F := F)),
             addCount (iblk m c 1 ⟨0, h⟩) (k0_pay5 (F := F)))
  | n + 1, h => (addBlock (iblk m c 0 ⟨n + 1, h⟩) (iblk m c 1 ⟨n + 1, h⟩) (totals c n (Nat.lt_of_succ_lt h)).1,
                 addCount (iblk m c 1 ⟨n + 1, h⟩) (totals c n (Nat.lt_of_succ_lt h)).2)

/-- What the run records in the two scratch totals after point `n` is the recursion above. -/
theorem outsAt_totals (c : Dev nD) : ∀ (n : ℕ) (h : n < cfg0.N), (outsAt0 m c n h).2 = totals m c n h
  | 0, h => by
    have h0 : (⟨0, h⟩ : Fin cfg0.N).val % 32 = 0 := rfl
    have h1 : ¬(⟨0, h⟩ : Fin cfg0.N).val % 32 = 31 := by dsimp only; omega
    have hc0 : cond0_0 (grid0.coords ⟨0, h⟩) := (hcond0_0 ⟨0, h⟩).mpr h0
    have hc1 : ¬cond0_1 (grid0.coords ⟨0, h⟩) := fun hh => h1 ((hcond0_1 ⟨0, h⟩).mp hh)
    refine (congrArg Prod.snd (outsAt0_A m c ⟨0, h⟩ h0 h1)).trans ?_
    dsimp only
    exact Prod.ext (total_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) hc0 hc1 (iblk m c 0 ⟨0, h⟩) (iblk m c 1 ⟨0, h⟩))
      (count_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) hc0 hc1 (iblk m c 0 ⟨0, h⟩) (iblk m c 1 ⟨0, h⟩))
  | n + 1, h => by
    have hN : cfg0.N = 32 := N_0
    have ih := outsAt_totals c n (Nat.lt_of_succ_lt h)
    have h0 : ¬(⟨n + 1, h⟩ : Fin cfg0.N).val % 32 = 0 := by dsimp only; omega
    have hc0 : ¬cond0_0 (grid0.coords ⟨n + 1, h⟩) := fun hh => h0 ((hcond0_0 ⟨n + 1, h⟩).mp hh)
    by_cases h1 : (⟨n + 1, h⟩ : Fin cfg0.N).val % 32 = 31
    · have hc1 : cond0_1 (grid0.coords ⟨n + 1, h⟩) := (hcond0_1 ⟨n + 1, h⟩).mpr h1
      refine (congrArg Prod.snd (outsAt0_C m c ⟨n + 1, h⟩ h0 h1)).trans ?_
      dsimp only
      refine Prod.ext ?_ ?_
      · rw [total_last]
        show addBlock _ _ (outsAt0 m c n _).2.1 = _
        rw [ih]
        rfl
      · rw [count_last]
        show addCount _ (outsAt0 m c n _).2.2 = _
        rw [ih]
        rfl
    · have hc1 : ¬cond0_1 (grid0.coords ⟨n + 1, h⟩) := fun hh => h1 ((hcond0_1 ⟨n + 1, h⟩).mp hh)
      refine (congrArg Prod.snd (outsAt0_B m c ⟨n + 1, h⟩ h0 h1)).trans ?_
      dsimp only
      refine Prod.ext ?_ ?_
      · rw [total_mid]
        show addBlock _ _ (outsAt0 m c n _).2.1 = _
        rw [ih]
        rfl
      · rw [count_mid]
        show addCount _ (outsAt0 m c n _).2.2 = _
        rw [ih]
        rfl

/-- The last grid point. -/
abbrev tLast : Fin cfg0.N := ⟨31, by rw [show cfg0.N = 32 from N_0]; decide⟩

/-- The result block the last point stores: the guarded quotient of the two totals after it. -/
abbrev resultBlock (c : Dev nD) : Vec F S1x1 .f32 :=
  k0_pay3 (totals m c 31 tLast.isLt).2 (totals m c 31 tLast.isLt).1

/-- What the run records in the output's staging buffer after the last point. -/
theorem outsAt_last (c : Dev nD) : (outsAt0 m c 31 tLast.isLt).1 = resultBlock m c := by
  have h0 : ¬(tLast : Fin cfg0.N).val % 32 = 0 := by decide
  have h1 : (tLast : Fin cfg0.N).val % 32 = 31 := by decide
  have hc0 : ¬cond0_0 (grid0.coords tLast) := fun hh => h0 ((hcond0_0 tLast).mp hh)
  have hc1 : cond0_1 (grid0.coords tLast) := (hcond0_1 tLast).mpr h1
  refine (congrArg Prod.fst (outsAt0_C m c tLast h0 h1)).trans ?_
  dsimp only
  rw [result_last]
  have ih := outsAt_totals m c 30 (Nat.lt_of_succ_lt tLast.isLt)
  show k0_pay3 (addCount _ (outsAt0 m c 30 _).2.2) (addBlock _ _ (outsAt0 m c 30 _).2.1) = _
  rw [ih]
  rfl

end Cert.KernelIdeal.Totals

end
-- ==== Proof.KernelRun.lean ====
/-
  The kernel's run read as a value. The output window's one block is the whole [1,1] result array; the pipeline writes
  it back once, after the last grid point, with the guarded quotient of the two totals; the host then reshapes that
  one entry to a scalar. So the program ends with its result at that scalar and its two argument arrays unchanged.
-/
import proofs.«164157_j73057393705013_1_alg».proof.Proof.Totals
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Totals

variable {F : FTy → Type} [FloatOps F]
variable (m : (ℓ : Loc nD τ sig) → Buf (Elt F) ℓ) (ρ : Dev nD → PrngReg)

/-- The [1,1] result array's contents: the block the last point stores. -/
abbrev result (c : Dev nD) : Buf (Elt F) ((c : Thread nD τ).loc main_v0) := resultBlock m c

/-- The one write-back, after the last point, writes that block: block (0, 0) of a [1,1] array read through zero
    offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2]
  show (cfg0.win 2).cut (grid0.coords tLast) (outsAt0 m c 31 tLast.isLt).1 = _
  rw [outsAt_last]
  have hz' : (fun a => win0_2.index tLast a * main_v0.ty.shape.size a) = fun _ => 0 :=
    funext fun a => by fin_cases a <;> decide
  exact (Memref.read_access_unit_zero (Elt F) main_v0 hz' (fun a => by rw [congrFun hz' a]; simp) (result m c)).symm

/-- So the result array ends holding it: the last point's block covers the array's one index. -/
theorem final_result (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The scalar the host's reshape makes of the result array. -/
abbrev scalarResult (c : Dev nD) : Buf (Elt F) ((c : Thread nD τ).loc main_v1) :=
  shapeCast S_ (result m c) shapeCasts_S1x1_S_

/-- After the region the host reshapes the result array: the scalar buffer ends at that reshape. -/
theorem tail_eq (c : Dev nD) :
    Pipeline.afterTail₀ cfgs (dats m) 0 (V0 m) [hostOps1] c main_v1 = scalarResult m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N)
      (Proc.devRef .tc main_v0) = result m c :=
    (Pipeline.withArrays_arr spec0 launch0.win.arr_inj c _ _ 2).trans (final_result m c)
  show shapeCast S_ (Pipeline.withArrays (cfgs 0).spec c (V0 m c) (fun w => (dats m 0 c).arrAt w (cfgs 0).N)
      (Proc.devRef .tc main_v0)) shapeCasts_S1x1_S_ i = _
  rw [e]

/-- The run, read: every weakly fair execution ends with the scalar result at the reshape of the last point's block
    and with the two argument arrays unchanged. -/
theorem run : θ_run defs (onTc (τ := τ) (main (F := F))) ⟨m, fun _ => 0, ρ⟩ fun r => ∀ c : Dev nD,
      r.2.mem ((c : Thread nD τ).loc main_v1) = scalarResult m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.Payloads.lean ====
/-
  The kernel body's pure arithmetic, read over the extended reals.

  A block is 256 rows of 4096 predictions (x0) and of 4096 targets (x1). Over the extended reals the comparison
  "t ≠ t" is false at every element (nothing is unordered), so the mask "not (t ≠ t)" is true everywhere, every select on
  it keeps its first branch, each row counts 4096 > 1 valid entries, and the products by 1 change nothing. What is left:
  the row maximum M = max over the row, S = ∑ₖ exp(xₖ - M), the log-softmax xⱼ - (log S + M) of both arrays, the row
  divergence ∑ⱼ exp(tⱼ)·(tⱼ - pⱼ), its sum over the block's 256 rows added to the running total, 256 added to the running
  row count, and at the end total / max(count, 1).
-/
import proofs.«164157_j73057393705013_1_alg».proof.Proof.Gen.KernelIdeal.Skeleton
import proofs.«164157_j73057393705013_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Payloads

open Cert.KernelIdeal Cert.KernelIdeal.Gen Idealize.ShloMosaic Idealize.ShloMosaic.ValueIdx

variable [Cert.KernelIdeal.Facts]

/-! ## Words -/

/-- The word of 1.0 denotes 1. -/
theorem ofBits_one : Ideal.ofBits .f32 0x3F800000#32 = 1 := by
  simp [Ideal.ofBits, Ideal.ieee, -EReal.coe_mul] <;> norm_num

/-- The word of -∞ denotes ⊥. -/
theorem ofBits_neg_inf : Ideal.ofBits .f32 0xFF800000#32 = ⊥ := by
  simp [Ideal.ofBits, Ideal.ieee]

/-- A sum of m ones is m. -/
theorem sum_one (m : ℕ) : ∑ _k : Fin m, (1 : EReal) = (((m : ℕ) : ℝ) : EReal) := by
  rw [Finset.sum_const, Finset.card_univ, Fintype.card_fin, ← EReal.coe_one, ← EReal.coe_nsmul, nsmul_eq_mul, mul_one]

theorem sum_one_4096 : ∑ _k : Fin 4096, (1 : EReal) = ((4096 : ℝ) : EReal) := by
  rw [sum_one, Nat.cast_ofNat]

theorem sum_one_256 : ∑ _k : Fin 256, (1 : EReal) = ((256 : ℝ) : EReal) := by
  rw [sum_one, Nat.cast_ofNat]

/-- The bit 1, widened to 32 bits and converted, is the real number 1. -/
theorem sitofp_true : FloatOps.sitofp (F := Ideal) .f32 (BitVec.setWidth 32 (1#1)) = (1 : EReal) := by
  show (((BitVec.setWidth 32 (1#1)).toInt : ℝ) : EReal) = 1
  have h : (BitVec.setWidth 32 (1#1)).toInt = 1 := by decide
  rw [h, Int.cast_one, EReal.coe_one]

/-- 4096 > 1. -/
theorem cmp_ogt_4096_one : Ideal.cmp .ogt ((4096 : ℝ) : EReal) 1 = 1#1 := by
  have h : (1 : EReal) < ((4096 : ℝ) : EReal) := by exact_mod_cast (by norm_num : (1 : ℝ) < 4096)
  simp only [Ideal.cmp, h, decide_true, BitVec.ofBool_true]
  rfl

/-- The exponential and the logarithm of a vector at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## Indices of the unit-axis shapes, and the keepdims layout operations read at an index -/

/-- A [1,1] array has one index. -/
theorem idx11 (i : (⟨2, ![1, 1]⟩ : Shape).Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- A [1] array has one index. -/
theorem idx1 (i : (⟨1, ![1]⟩ : Shape).Idx) : i = ix1 (0 : Fin 1) := by
  funext a
  match a with
  | ⟨0, _⟩ => exact Fin.ext (by have h : (i 0).val < 1 := (i 0).isLt; show (i 0).val = 0; omega)

/-- An index of a [256,1] column is (r, 0). -/
theorem idx_col (i : (⟨2, ![256, 1]⟩ : Shape).Idx) : ∃ r : Fin 256, i = ix2 r (0 : Fin 1) :=
  ⟨⟨(i 0).val, idx2_lt0 i⟩, by
    funext a
    match a with
    | ⟨0, _⟩ => exact Fin.ext rfl
    | ⟨1, _⟩ => exact Fin.ext (by have := idx2_lt1 i; show (i 1).val = 0; omega)⟩

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions read at an index -/

/-- A sum along the lanes of a [256,4096] array, at row r. -/
theorem laneSum_apply (src : FVec Ideal S256x4096 .f32) (r : Fin 256) :
    multiReduction .add [1] S256 src 0x00000000#32 reduces_S256x4096_S256 (.inl rfl) rfl (ix1 r)
      = ∑ k : Fin 4096, src (ix2 r k) := by
  refine (Ideal.multiReduction_add_single src 0x00000000#32 reduces_S256x4096_S256 (.inl rfl) rfl (ix1 r)).trans ?_
  show ∑ k : Fin 4096, src (reduces_S256x4096_S256.lift (ix1 r) k) = _
  refine Finset.sum_congr rfl fun k _ => congrArg src ?_
  funext a
  match a with
  | ⟨0, _⟩ => exact Fin.ext rfl
  | ⟨1, _⟩ => exact Fin.ext rfl

/-- A maximum along the lanes of a [256,4096] array from -∞, at row r: the row's maximum. -/
theorem laneMax_apply (src : FVec Ideal S256x4096 .f32) (r : Fin 256) :
    multiReduction .maximumf [1] S256 src 0xFF800000#32 reduces_S256x4096_S256 (.inl rfl) rfl (ix1 r)
      = Cert.Spec.rowMax (Cert.Spec.row src r) := by
  refine (Ideal.multiReduction_maximumf_single src 0xFF800000#32 reduces_S256x4096_S256 (.inl rfl) rfl (ix1 r)).trans ?_
  show (Finset.univ : Finset (Fin 4096)).fold max (Ideal.ofBits .f32 0xFF800000#32)
      (src ∘ reduces_S256x4096_S256.lift (ix1 r)) = (Finset.univ : Finset (Fin 4096)).fold max ⊥ (Cert.Spec.row src r)
  rw [ofBits_neg_inf]
  refine congrArg (fun f => (Finset.univ : Finset (Fin 4096)).fold max (⊥ : EReal) f) ?_
  funext k
  show src (reduces_S256x4096_S256.lift (ix1 r) k) = src (ix2 r k)
  refine congrArg src ?_
  funext a
  match a with
  | ⟨0, _⟩ => exact Fin.ext rfl
  | ⟨1, _⟩ => exact Fin.ext rfl

/-- A sum down the one column of a [256,1] array, at its one index. -/
theorem colSum_apply (src : FVec Ideal S256x1 .f32) :
    multiReduction .add [0] S1 src 0x00000000#32 reduces_S256x1_S1 (.inl rfl) rfl (ix1 (0 : Fin 1))
      = ∑ r : Fin 256, src (ix2 r (0 : Fin 1)) := by
  refine (Ideal.multiReduction_add_single src 0x00000000#32 reduces_S256x1_S1 (.inl rfl) rfl (ix1 (0 : Fin 1))).trans ?_
  show ∑ r : Fin 256, src (reduces_S256x1_S1.lift (ix1 (0 : Fin 1)) r) = _
  refine Finset.sum_congr rfl fun r _ => congrArg src ?_
  funext a
  match a with
  | ⟨0, _⟩ => exact Fin.ext rfl
  | ⟨1, _⟩ => exact Fin.ext rfl

/-! ## The initial values and the final quotient -/

theorem pay4_eq : k0_pay4 (F := Ideal) = fun _ => (0 : EReal) := by
  unfold k0_pay4
  dsimp only
  rw [shapeCast_self]
  funext i
  exact Ideal.ofBits_zero_f32

theorem pay5_eq : k0_pay5 (F := Ideal) = fun _ => (0 : EReal) := by
  unfold k0_pay5
  dsimp only
  rw [shapeCast_self]
  funext i
  exact Ideal.ofBits_zero_f32

theorem pay3_eq (n tot : FVec Ideal S1x1 .f32) (hn : n (ix2 0 0) = ((8192 : ℝ) : EReal)) :
    k0_pay3 (F := Ideal) n tot = fun _ => Ideal.div (tot (ix2 0 0)) ((8192 : ℝ) : EReal) := by
  unfold k0_pay3
  dsimp only
  funext i
  obtain rfl : i = ix2 0 0 := idx11 i
  have hpos : (0 : EReal) < ((8192 : ℝ) : EReal) := EReal.coe_pos.mpr (by norm_num)
  have hmax : max ((8192 : ℝ) : EReal) 1 = ((8192 : ℝ) : EReal) :=
    max_eq_left (by exact_mod_cast (by norm_num : (1 : ℝ) ≤ 8192))
  simp only [select_apply, cmpf_apply, divf_apply, maximumf_apply, broadcast_apply, hn, Ideal.cmpf_def,
    Ideal.ofBits_def, Ideal.ofBits_zero_f32, ofBits_one, Ideal.cmp, hpos, hmax, decide_true, BitVec.ofBool_true]
  exact select_one _ _

/-! ## The mask and the row-validity bits -/

/-- The mask "not (t ≠ t)" is true at every element: over the extended reals t = t. -/
theorem pay6_eq (x1 : FVec Ideal S256x4096 .f32) : k0_pay6 (F := Ideal) x1 = fun _ => 1#1 := by
  unfold k0_pay6
  dsimp only
  funext i
  simp only [xori, cmpf_apply, Ideal.cmpf_def, Ideal.cmp, constantI, IntOp.xori, ne_eq, not_true_eq_false,
    decide_false, BitVec.ofBool_false]
  decide

/-- Each row counts 4096 > 1 valid entries: every row-validity bit is true. -/
theorem pay7_eq (x1 : FVec Ideal S256x4096 .f32) : k0_pay7 (F := Ideal) x1 = fun _ => 1#1 := by
  unfold k0_pay7
  dsimp only
  rw [pay6_eq]
  funext i
  obtain ⟨r, rfl⟩ := idx_col i
  rw [cmpf_apply, shapeCast_a_a1_apply, laneSum_apply, broadcast_apply]
  show Ideal.cmp .ogt (∑ _k : Fin 4096, FloatOps.sitofp (F := Ideal) .f32 (BitVec.setWidth 32 (1#1)))
    (Ideal.ofBits .f32 0x3F800000#32) = 1#1
  simp only [sitofp_true, sum_one_4096, ofBits_one]
  exact cmp_ogt_4096_one

/-- The row counter gains the block's 256 rows. -/
theorem pay2_eq (x1 : FVec Ideal S256x4096 .f32) (n : FVec Ideal S1x1 .f32) :
    k0_pay2 (F := Ideal) (k0_pay7 (F := Ideal) x1) n = fun _ => n (ix2 0 0) + ((256 : ℝ) : EReal) := by
  rw [pay7_eq]
  unfold k0_pay2
  dsimp only
  rw [shapeCast_self]
  funext i
  obtain rfl : i = ix2 0 0 := idx11 i
  rw [addf_apply, shapeCast_a_1a_apply, colSum_apply]
  show n (ix2 0 0) + ∑ _r : Fin 256, FloatOps.sitofp (F := Ideal) .f32 (BitVec.setWidth 32 (1#1)) = _
  simp only [sitofp_true, sum_one_256]

/-- Under the all-true mask a select keeps the array, and the product by 1.0 changes nothing. -/
theorem masked_eq (x : FVec Ideal S256x4096 .f32) (w : BitVec 32) :
    mulf (select (fun _ => 1#1) x (broadcast S256x4096 (Scalar.ofBits (F := Ideal) .f32 w)))
      (broadcast S256x4096 (Scalar.ofBits (F := Ideal) .f32 0x3F800000#32)) = x := by
  funext i
  simp only [mulf_apply, select_apply, select_one, broadcast_apply]
  show x i * Ideal.ofBits .f32 0x3F800000#32 = x i
  rw [ofBits_one, mul_one]

/-- The targets, masked and multiplied by 1.0, are the targets. -/
theorem pay8_eq (x1 : FVec Ideal S256x4096 .f32) : k0_pay8 (F := Ideal) x1 = x1 := by
  unfold k0_pay8
  dsimp only
  rw [pay6_eq]
  exact masked_eq x1 _

/-! ## The log-softmax of both arrays -/

/-- The targets' column log S + M, at row r. -/
theorem pay10_apply (x1 : FVec Ideal S256x4096 .f32) (r : Fin 256) :
    k0_pay10 (F := Ideal) x1 (ix2 r (0 : Fin 1))
      = Ideal.log (Cert.Spec.rowSumExp (Cert.Spec.row x1 r)) + Cert.Spec.rowMax (Cert.Spec.row x1 r) := by
  unfold k0_pay10
  dsimp only
  rw [pay8_eq]
  simp only [addf_apply, log_apply, shapeCast_a_a1_apply]
  rw [laneSum_apply]
  simp only [exp_apply, subf_apply, shapeCast_a_a1_apply, broadcastTo_a1_ab_apply]
  rw [laneMax_apply]
  rfl

/-- The predictions' log-softmax, in the arrangement x - (log S + M), at (r, j). -/
theorem pay9_apply (x0 x1 : FVec Ideal S256x4096 .f32) (r : Fin 256) (j : Fin 4096) :
    k0_pay9 (F := Ideal) x0 x1 (ix2 r j) = Cert.Spec.logSoftmax' (Cert.Spec.row x0 r) j := by
  unfold k0_pay9
  dsimp only
  rw [pay6_eq, masked_eq]
  simp only [subf_apply, broadcastTo_a1_ab_apply, addf_apply, log_apply, shapeCast_a_a1_apply]
  rw [laneSum_apply]
  simp only [exp_apply, subf_apply, shapeCast_a_a1_apply, broadcastTo_a1_ab_apply]
  rw [laneMax_apply]
  rfl

/-! ## The block's contribution to the running total -/

/-- The running total gains the sum over the block's 256 rows of the row divergence. -/
theorem pay1_eq (x0 x1 : FVec Ideal S256x4096 .f32) (acc : FVec Ideal S1x1 .f32) :
    k0_pay1 (F := Ideal) (k0_pay6 (F := Ideal) x1) (k0_pay7 (F := Ideal) x1) (k0_pay8 (F := Ideal) x1)
        (k0_pay9 (F := Ideal) x0 x1) (k0_pay10 (F := Ideal) x1) acc
      = fun _ => acc (ix2 0 0) + ∑ r : Fin 256, Cert.Spec.klRow' (Cert.Spec.row x0 r) (Cert.Spec.row x1 r) := by
  rw [pay6_eq, pay7_eq, pay8_eq]
  unfold k0_pay1
  dsimp only
  rw [shapeCast_self]
  funext i
  obtain rfl : i = ix2 0 0 := idx11 i
  rw [addf_apply, shapeCast_a_1a_apply, colSum_apply]
  refine congrArg (fun s => acc (ix2 0 0) + s) (Finset.sum_congr rfl fun r _ => ?_)
  simp only [select_apply, select_one, shapeCast_a_a1_apply]
  rw [laneSum_apply]
  refine Finset.sum_congr rfl fun k _ => ?_
  simp only [select_apply, select_one, mulf_apply, exp_apply, subf_apply, broadcastTo_a1_ab_apply, pay9_apply,
    pay10_apply]
  rfl

end Cert.Payloads

end
-- ==== Proof.LibFinite.lean ====
/-
  Extended reals that are real numbers: the variance identity.

  Over the extended reals, "mean of squares minus square of mean" and "mean of squared deviations" agree
  when every entry of the column is a real number: then every sum, quotient by the (nonzero) count and
  product below is the extended real of the corresponding real expression, and the identity is the
  textbook one over the reals.
-/
import Idealize.ShloMosaic.PureOps.Ideal.Laws
import Mathlib.Algebra.BigOperators.Field
import Mathlib.Tactic.FieldSimp
import Mathlib.Tactic.Ring

noncomputable section

open scoped BigOperators

namespace Cert.Fin

open Idealize.ShloMosaic

/-- Every entry of the family is (the extended real of) a real number. -/
def AllReal {ι : Type*} (v : ι → EReal) : Prop := ∀ i, ∃ r : ℝ, v i = (r : EReal)

/-- A family of reals, seen in the extended reals, is all real. -/
theorem allReal_coe {ι : Type*} (f : ι → ℝ) : AllReal (fun i => (f i : EReal)) := fun i => ⟨f i, rfl⟩

/-- An all-real family is the extended-real image of a family of reals. -/
theorem AllReal.exists_fun {ι : Type*} {v : ι → EReal} (h : AllReal v) :
    ∃ f : ι → ℝ, v = fun i => (f i : EReal) := by
  choose f hf using h
  exact ⟨f, funext hf⟩

/-- The extended real of a finite sum of reals is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A finite sum of reals is real, when only the summands in the range are known to be real. -/
theorem sum_real_of_mem {ι : Type*} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The sum of two reals is real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The difference of two reals is real. -/
theorem sub_real {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- The product of two reals is real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The maximum of two reals is real. -/
theorem max_real {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

/-- A real divided by a nonzero real is real. -/
theorem div_real {a b : EReal} (ha : ∃ r : ℝ, a = (r : EReal)) (hb : ∃ r : ℝ, r ≠ 0 ∧ b = (r : EReal)) :
    ∃ r : ℝ, Ideal.div a b = (r : EReal) := by
  obtain ⟨x, rfl⟩ := ha; obtain ⟨y, hy, rfl⟩ := hb
  exact ⟨x * (1 / y), by rw [Ideal.div_coe hy, EReal.coe_mul]⟩

/-! ## The variance identity -/

/-- The real identity behind the variance: with `S = ∑ f`, `Q = ∑ f²` and `n ≠ 0` entries,
    `Q/n − (S/n)² = (∑ (f − S/n)²)/n`. -/
theorem var_identity_real {n : ℕ} (hn : 0 < n) (f : Fin n → ℝ) :
    (∑ r, f r * f r) * (1 / (n : ℝ)) - (∑ r, f r) * (1 / (n : ℝ)) * ((∑ r, f r) * (1 / (n : ℝ)))
      = (∑ r, (f r - (∑ r, f r) * (1 / (n : ℝ))) * (f r - (∑ r, f r) * (1 / (n : ℝ)))) * (1 / (n : ℝ)) := by
  have hn0 : (n : ℝ) ≠ 0 := by exact_mod_cast hn.ne'
  set S : ℝ := ∑ r, f r with hS
  set m : ℝ := S * (1 / (n : ℝ)) with hm
  have hexp : ∀ r, (f r - m) * (f r - m) = f r * f r - 2 * m * f r + m * m := fun r => by ring
  have hsum : ∑ r, (f r - m) * (f r - m) = (∑ r, f r * f r) - 2 * m * S + (n : ℝ) * (m * m) := by
    simp_rw [hexp]
    rw [Finset.sum_add_distrib, Finset.sum_sub_distrib, ← Finset.mul_sum, Finset.sum_const, Finset.card_univ,
      Fintype.card_fin, nsmul_eq_mul]
  rw [hsum, hm]
  field_simp
  ring

/-- Variance two ways. For a column `x` of `n > 0` real entries and `N` the count `n`: the mean of the squares
    minus the square of the mean is the mean of the squared deviations from the mean (each sum on the right
    started from zero, as a reduction from a zero initial value is). -/
theorem var_identity {n : ℕ} (hn : 0 < n) (x : Fin n → EReal) (hx : AllReal x) (N : EReal)
    (hN : N = ((n : ℝ) : EReal)) :
    Ideal.div (∑ r, x r * x r) N - Ideal.div (∑ r, x r) N * Ideal.div (∑ r, x r) N
      = Ideal.div (0 + ∑ r, (x r - Ideal.div (0 + ∑ r, x r) N) * (x r - Ideal.div (0 + ∑ r, x r) N)) N := by
  have hn0 : (n : ℝ) ≠ 0 := by exact_mod_cast hn.ne'
  obtain ⟨f, rfl⟩ := hx.exists_fun
  subst hN
  simp only [zero_add, Ideal.div_coe hn0, ← EReal.coe_mul, ← coe_sum, ← EReal.coe_sub]
  rw [var_identity_real hn f]

/-- The mean of a real column is real. -/
theorem mean_real {n : ℕ} (hn : 0 < n) (x : Fin n → EReal) (hx : AllReal x) (N : EReal)
    (hN : N = ((n : ℝ) : EReal)) : ∃ m : ℝ, Ideal.div (0 + ∑ r, x r) N = (m : EReal) := by
  have hn0 : (n : ℝ) ≠ 0 := by exact_mod_cast hn.ne'
  obtain ⟨f, rfl⟩ := hx.exists_fun
  subst hN
  exact ⟨(∑ r, f r) * (1 / (n : ℝ)), by simp only [zero_add, Ideal.div_coe hn0, ← EReal.coe_mul, ← coe_sum]⟩

/-- The variance of a real column is a nonnegative real. -/
theorem var_nonneg_real {n : ℕ} (hn : 0 < n) (x : Fin n → EReal) (hx : AllReal x) (N : EReal)
    (hN : N = ((n : ℝ) : EReal)) :
    ∃ v : ℝ, 0 ≤ v ∧
      Ideal.div (0 + ∑ r, (x r - Ideal.div (0 + ∑ r, x r) N) * (x r - Ideal.div (0 + ∑ r, x r) N)) N
        = (v : EReal) := by
  have hn0 : (n : ℝ) ≠ 0 := by exact_mod_cast hn.ne'
  obtain ⟨f, rfl⟩ := hx.exists_fun
  subst hN
  refine ⟨(∑ r, (f r - (∑ r, f r) * (1 / (n : ℝ))) * (f r - (∑ r, f r) * (1 / (n : ℝ)))) * (1 / (n : ℝ)), ?_, ?_⟩
  · apply mul_nonneg
    · exact Finset.sum_nonneg (fun r _ => mul_self_nonneg _)
    · positivity
  · simp only [zero_add, Ideal.div_coe hn0, ← EReal.coe_mul, ← coe_sum, ← EReal.coe_sub]

end Cert.Fin
-- ==== Proof.ERealLaws.lean ====
/-
  Laws of the extended reals used to join the two arrangements of a log-softmax:
  for real numbers x, M, L the two readings  x - (L + M)  and  (x - M) - L  agree.
-/
import Mathlib.Data.EReal.Basic
import Mathlib.Data.EReal.Operations

namespace Cert.ERealLaws

/-- For reals, subtracting a sum is subtracting its two parts one after the other, in either order. -/
theorem sub_add_eq_sub_sub_real (x M L : ℝ) :
    ((x : EReal) - ((L : EReal) + (M : EReal))) = (((x : EReal) - (M : EReal)) - (L : EReal)) := by
  rw [← EReal.coe_add, ← EReal.coe_sub, ← EReal.coe_sub, ← EReal.coe_sub]
  congr 1
  ring

end Cert.ERealLaws
-- ==== Proof.RowLaw.lean ====
/-
  The two arrangements of a log-softmax agree on a nonempty row of real numbers.

  For a row x of n > 0 real numbers, seen in the extended reals:
    * M = the fold of max from -∞ over the row is a real number: folding over a finite set gives -∞ only for
      the empty set, and the maximum of a real number with -∞ or with a real number is a real number;
    * each exp(xₖ - M) is the real exponential of a real number, so positive, and the sum S over the nonempty
      row is a positive real number;
    * log S is therefore the real logarithm of S, a real number;
    * for real numbers x, M, L one has x - (L + M) = (x - M) - L, and both sides are the extended reals of
      these real expressions.
  The divergence of a row over one arrangement is then the divergence over the other, term by term.
-/
import proofs.«164157_j73057393705013_1_alg».proof.Proof.Spec
import proofs.«164157_j73057393705013_1_alg».proof.Proof.LibFinite
import proofs.«164157_j73057393705013_1_alg».proof.Proof.ERealLaws
import Mathlib

noncomputable section

open scoped BigOperators

namespace Cert.Spec

open Idealize.ShloMosaic

/-- The fold of max from -∞ over a finite set of real numbers is -∞ for the empty set and a real number
    otherwise. -/
theorem fold_max_bot_or_real {ι : Type*} (s : Finset ι) (f : ι → ℝ) :
    (s = ∅ ∧ s.fold max (⊥ : EReal) (fun i => (f i : EReal)) = ⊥) ∨
      ∃ r : ℝ, s.fold max (⊥ : EReal) (fun i => (f i : EReal)) = (r : EReal) := by
  classical
  induction s using Finset.induction_on with
  | empty => exact Or.inl ⟨rfl, Finset.fold_empty⟩
  | insert a s ha ih =>
    right
    rw [Finset.fold_insert ha]
    rcases ih with ⟨_, h⟩ | ⟨r, h⟩
    · exact ⟨f a, by rw [h]; exact max_eq_left bot_le⟩
    · rw [h]; exact Cert.Fin.max_real ⟨f a, rfl⟩ ⟨r, rfl⟩

/-- The maximum of a nonempty row of real numbers is a real number. -/
theorem rowMax_real {n : ℕ} (hn : 0 < n) (f : Fin n → ℝ) :
    ∃ m : ℝ, rowMax (fun j => (f j : EReal)) = (m : EReal) := by
  rcases fold_max_bot_or_real (Finset.univ : Finset (Fin n)) f with ⟨he, _⟩ | h
  · haveI : Nonempty (Fin n) := ⟨⟨0, hn⟩⟩
    exact absurd he (Finset.univ_nonempty (α := Fin n)).ne_empty
  · exact h

/-- The sum of exp(xₖ - M) over a nonempty row of real numbers is a positive real number. -/
theorem rowSumExp_pos_real {n : ℕ} (hn : 0 < n) (f : Fin n → ℝ) :
    ∃ s : ℝ, 0 < s ∧ rowSumExp (fun j => (f j : EReal)) = (s : EReal) := by
  obtain ⟨m, hm⟩ := rowMax_real hn f
  refine ⟨∑ k, Real.exp (f k - m), ?_, ?_⟩
  · haveI : Nonempty (Fin n) := ⟨⟨0, hn⟩⟩
    exact Finset.sum_pos (fun k _ => Real.exp_pos _) Finset.univ_nonempty
  · unfold rowSumExp
    rw [hm, Cert.Fin.coe_sum]
    refine Finset.sum_congr rfl (fun k _ => ?_)
    rw [← EReal.coe_sub, Ideal.exp_coe]

/-- On a nonempty row of real numbers, subtracting the log-sum-exp in one step is subtracting the maximum and
    then the logarithm of the sum. -/
theorem logSoftmax'_eq {n : ℕ} (hn : 0 < n) (x : Fin n → EReal) (hx : ∀ j, ∃ r : ℝ, x j = (r : EReal)) :
    logSoftmax' x = logSoftmax x := by
  obtain ⟨f, rfl⟩ := Cert.Fin.AllReal.exists_fun hx
  obtain ⟨m, hm⟩ := rowMax_real hn f
  obtain ⟨s, hs, hS⟩ := rowSumExp_pos_real hn f
  funext j
  unfold logSoftmax' logSoftmax
  rw [hS, hm, Ideal.log_coe, if_neg (not_le.mpr hs)]
  exact Cert.ERealLaws.sub_add_eq_sub_sub_real (f j) m (Real.log s)

/-- The divergence of a row is the same over either arrangement, when both rows are nonempty rows of real
    numbers. -/
theorem klRow'_eq {n : ℕ} (hn : 0 < n) (p t : Fin n → EReal) (hp : ∀ j, ∃ r : ℝ, p j = (r : EReal))
    (ht : ∀ j, ∃ r : ℝ, t j = (r : EReal)) : klRow' p t = klRow p t := by
  unfold klRow' klRow
  rw [logSoftmax'_eq hn p hp, logSoftmax'_eq hn t ht]

end Cert.Spec

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.KernelLoss.lean ====
/-
  The kernel's scalar result, at the ideal instance, is the loss of its two argument arrays.

  Block t of each input is rows 256·t … 256·t + 255 of the array, so the sum the body forms at point t is the sum of
  those rows' divergences; the running total over the 32 points is therefore the sum over all 8192 rows (a sum over
  32·256 terms cut into 32 consecutive blocks), the row count ends at 8192, and the guarded quotient is the total
  divided by 8192. The body writes the log-softmax as x - (log S + M); on rows of real numbers that is (x - M) - log S.
-/
import proofs.«164157_j73057393705013_1_alg».proof.Proof.KernelRun
import proofs.«164157_j73057393705013_1_alg».proof.Proof.Payloads
import proofs.«164157_j73057393705013_1_alg».proof.Proof.RowLaw
import proofs.«164157_j73057393705013_1_alg».proof.Proof.LibBlockSum
import Idealize.ShloMosaic.Lib.ValueIdx

noncomputable section

open scoped BigOperators
open Idealize.ShloMosaic Idealize.ShloMosaic.TcCoe Idealize.SL.Sem

namespace Cert.KernelIdeal.KLoss

open Cert.KernelIdeal Cert.KernelIdeal.Gen Cert.KernelIdeal.Totals Cert.KernelIdeal.KRun
open Idealize.ShloMosaic.ValueIdx Cert.Spec

variable (m : (ℓ : Loc nD τ sig) → Buf (Elt Ideal) ℓ)

/-- The predictions array and the targets array as the program finds them. -/
abbrev preds (c : Dev nD) : (⟨2, ![8192, 4096]⟩ : Shape).Idx → EReal := m ((c : Thread nD τ).loc main_arg0)
abbrev targs (c : Dev nD) : (⟨2, ![8192, 4096]⟩ : Shape).Idx → EReal := m ((c : Thread nD τ).loc main_arg1)

/-- Block `t` of either input starts at row 256·t, column 0. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

theorem rowIdx_lt (t : Fin cfg0.N) (r : Fin 256) : 256 * t.val + r.val < 8192 := by
  have hN : cfg0.N = 32 := N_0
  have := t.isLt; have := r.isLt; omega

/-- Row r of block t of the predictions is row 256·t + r of the array; likewise the targets. -/
theorem iblk0_apply (c : Dev nD) (t : Fin cfg0.N) (r : Fin 256) (j : Fin 4096) :
    (iblk m c 0 t : Vec Ideal S256x4096 .f32) (ix2 r j) = preds m c (ix2 ⟨256 * t.val + r.val, rowIdx_lt t r⟩ j) := by
  unfold iblk
  rw [View.read_apply]
  show V m c main_arg0 _ = m ((c : Thread nD τ).loc main_arg0) _
  unfold V
  congr 1
  funext a
  apply Fin.ext
  match a with
  | ⟨0, _⟩ => show win0_0.index t 0 * 256 + 1 * r.val = 256 * t.val + r.val; rw [(idx0 t).1]; omega
  | ⟨1, _⟩ => show win0_0.index t 1 * 4096 + 1 * j.val = j.val; rw [(idx0 t).2]; omega

theorem iblk1_apply (c : Dev nD) (t : Fin cfg0.N) (r : Fin 256) (j : Fin 4096) :
    (iblk m c 1 t : Vec Ideal S256x4096 .f32) (ix2 r j) = targs m c (ix2 ⟨256 * t.val + r.val, rowIdx_lt t r⟩ j) := by
  unfold iblk
  rw [View.read_apply]
  show V m c main_arg1 _ = m ((c : Thread nD τ).loc main_arg1) _
  unfold V
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * j.val = j.val; rw [(idx1 t).2]; omega

/-- The divergence of row k of the two arrays (second arrangement), as a function of a natural number. -/
def rowDiv (c : Dev nD) (k : ℕ) : EReal :=
  if h : k < 8192 then klRow' (row (preds m c) ⟨k, h⟩) (row (targs m c) ⟨k, h⟩) else 0

/-- The sum of the divergences of the 256 rows of block b. -/
def blockDiv (c : Dev nD) (b : ℕ) : EReal := ∑ p : Fin 256, rowDiv m c (256 * b + p.val)

/-- The block sum the body forms at point t is that sum. -/
theorem blockSum_eq (c : Dev nD) (t : Fin cfg0.N) :
    ∑ r : Fin 256, klRow' (row (iblk m c 0 t : Vec Ideal S256x4096 .f32) r) (row (iblk m c 1 t : Vec Ideal S256x4096 .f32) r)
      = blockDiv m c t.val := by
  unfold blockDiv
  refine Finset.sum_congr rfl fun r _ => ?_
  unfold rowDiv
  rw [dif_pos (rowIdx_lt t r)]
  rw [show row (iblk m c 0 t : Vec Ideal S256x4096 .f32) r = row (preds m c) ⟨256 * t.val + r.val, rowIdx_lt t r⟩ from
        funext fun j => iblk0_apply m c t r j,
      show row (iblk m c 1 t : Vec Ideal S256x4096 .f32) r = row (targs m c) ⟨256 * t.val + r.val, rowIdx_lt t r⟩ from
        funext fun j => iblk1_apply m c t r j]

/-- The body's two updates at the ideal instance, over variables. -/
theorem addBlock_eq (x0 x1 : FVec Ideal S256x4096 .f32) (acc : FVec Ideal S1x1 .f32) :
    addBlock (F := Ideal) x0 x1 acc = fun _ => acc (ix2 0 0) + ∑ r : Fin 256, klRow' (row x0 r) (row x1 r) :=
  Cert.Payloads.pay1_eq x0 x1 acc
theorem addCount_eq (x1 : FVec Ideal S256x4096 .f32) (n : FVec Ideal S1x1 .f32) :
    addCount (F := Ideal) x1 n = fun _ => n (ix2 0 0) + ((256 : ℝ) : EReal) :=
  Cert.Payloads.pay2_eq x1 n

/-- After point n the first total is the running sum of the block sums, the second 256·(n+1). -/
theorem totals_eq (c : Dev nD) : ∀ (n : ℕ) (h : n < cfg0.N),
    totals m c n h = ((fun _ => Cert.BlockSum.acc (blockDiv m c) n), (fun _ => (((256 * (n + 1) : ℕ) : ℝ) : EReal)))
  | 0, h => by
    refine Prod.ext ?_ ?_
    · show addBlock (iblk m c 0 ⟨0, h⟩) (iblk m c 1 ⟨0, h⟩) (k0_pay4 (F := Ideal)) = fun _ => Cert.BlockSum.acc (blockDiv m c) 0
      rw [addBlock_eq, blockSum_eq m c ⟨0, h⟩, Cert.BlockSum.acc_zero, Cert.Payloads.pay4_eq]
    · show addCount (iblk m c 1 ⟨0, h⟩) (k0_pay5 (F := Ideal)) = fun _ => (((256 * (0 + 1) : ℕ) : ℝ) : EReal)
      rw [addCount_eq, Cert.Payloads.pay5_eq]
      funext _
      show (0 : EReal) + ((256 : ℝ) : EReal) = (((256 * (0 + 1) : ℕ) : ℝ) : EReal)
      rw [zero_add]; norm_num
  | n + 1, h => by
    have ih := totals_eq c n (Nat.lt_of_succ_lt h)
    refine Prod.ext ?_ ?_
    · show addBlock (iblk m c 0 ⟨n + 1, h⟩) (iblk m c 1 ⟨n + 1, h⟩) (totals m c n _).1 = fun _ => Cert.BlockSum.acc (blockDiv m c) (n + 1)
      rw [addBlock_eq, blockSum_eq m c ⟨n + 1, h⟩, ih, Cert.BlockSum.acc_succ]
    · show addCount (iblk m c 1 ⟨n + 1, h⟩) (totals m c n _).2 = fun _ => (((256 * (n + 1 + 1) : ℕ) : ℝ) : EReal)
      rw [addCount_eq, ih]
      funext _
      show (((256 * (n + 1) : ℕ) : ℝ) : EReal) + ((256 : ℝ) : EReal) = (((256 * (n + 1 + 1) : ℕ) : ℝ) : EReal)
      rw [← EReal.coe_add]
      congr 1
      push_cast
      ring

/-- The kernel's scalar result is the loss of the two arrays, when every entry of both is a real number: the
    block-by-block running sum is the sum over all 8192 rows, the count is 8192, and on real rows the two
    arrangements of the log-softmax agree. -/
theorem scalar_eq (c : Dev nD) (hP : ∀ i, ∃ r : ℝ, preds m c i = (r : EReal)) (hT : ∀ i, ∃ r : ℝ, targs m c i = (r : EReal)) :
    scalarResult m c = fun _ => Cert.Spec.loss (preds m c) (targs m c) := by
  have hcnt : (totals m c 31 tLast.isLt).2 (ix2 0 0) = ((8192 : ℝ) : EReal) := by
    rw [totals_eq]
    show (((256 * (31 + 1) : ℕ) : ℝ) : EReal) = _
    norm_num
  funext i
  show shapeCast S_ (resultBlock m c) shapeCasts_S1x1_S_ i = _
  rw [show resultBlock m c = fun _ => Ideal.div ((totals m c 31 tLast.isLt).1 (ix2 0 0)) ((8192 : ℝ) : EReal) from
    Cert.Payloads.pay3_eq _ _ hcnt]
  show Ideal.div ((totals m c 31 tLast.isLt).1 (ix2 0 0)) ((8192 : ℝ) : EReal) = Cert.Spec.loss (preds m c) (targs m c)
  rw [totals_eq]
  show Ideal.div (Cert.BlockSum.acc (blockDiv m c) 31) ((8192 : ℝ) : EReal) = _
  rw [show blockDiv m c = fun b => ∑ p : Fin 256, rowDiv m c (256 * b + p.val) from rfl,
    Cert.BlockSum.acc_last_blocks 31 256 (rowDiv m c)]
  unfold Cert.Spec.loss
  congr 1
  show ∑ k : Fin 8192, rowDiv m c k.val = _
  refine Finset.sum_congr rfl fun r _ => ?_
  unfold rowDiv
  rw [dif_pos r.isLt]
  exact Cert.Spec.klRow'_eq (by decide) _ _ (fun j => hP _) (fun j => hT _)

end Cert.KernelIdeal.KLoss

end
-- ==== Proof.lean ====
/-
  The certificate of the list-wise ranking loss kernel against its reference, over the extended reals.

  Both programs take predictions P and targets T, two 8192 × 4096 arrays. For each row they form the log-softmax p of
  the predictions and t of the targets and the row's divergence ∑ⱼ exp(tⱼ)·(tⱼ - pⱼ); the result is the sum of the
  rows' divergences divided by the number of rows that take part. An entry takes part when the target is not a NaN,
  and a row when more than one of its entries does: over the extended reals there is no NaN, so every entry and every
  row takes part, both programs' masks are constantly true, and the count is 8192.

  The two programs differ in three ways. The kernel multiplies by the temperature's reciprocal 1 where the reference
  divides by the temperature 1. The kernel writes the log-softmax as x - (log S + M) — M the row maximum, S the sum of
  exp(x - M) — where the reference writes (x - M) - log S: for a row of real numbers M and log S are real and the two
  agree, which is where the precondition (every input entry finite) is used. And the kernel walks the rows in 32 blocks
  of 256, keeping a running total and a running count between blocks, where the reference sums all rows at once:
  a sum over 32·256 terms is the sum of its 32 consecutive block sums.

  The modules: Spec (the loss as one function of P and T), RowLaw (the two arrangements agree on real rows),
  FiniteInputs (the precondition says every entry is real), Payloads (the kernel body's arithmetic read at an index),
  Pieces, Totals, KernelRun (what the body leaves after each block, and the kernel's run read as a value), KernelLoss
  (that value is the loss), RefLoss (the reference's value is the loss), and the reference's run.
-/
import proofs.«164157_j73057393705013_1_alg».proof.Defs
import proofs.«164157_j73057393705013_1_alg».proof.Proof.Gen.Kernel
import proofs.«164157_j73057393705013_1_alg».proof.Proof.Gen.Kernel.Skeleton
import proofs.«164157_j73057393705013_1_alg».proof.Proof.Gen.Kernel.Launch
import proofs.«164157_j73057393705013_1_alg».proof.Proof.Gen.Kernel.Points
import proofs.«164157_j73057393705013_1_alg».proof.Proof.Gen.Kernel.Frame
import proofs.«164157_j73057393705013_1_alg».proof.Proof.Gen.KernelIdeal
import proofs.«164157_j73057393705013_1_alg».proof.Proof.Gen.KernelIdeal.Skeleton
import proofs.«164157_j73057393705013_1_alg».proof.Proof.Gen.KernelIdeal.Launch
import proofs.«164157_j73057393705013_1_alg».proof.Proof.Gen.KernelIdeal.Points
import proofs.«164157_j73057393705013_1_alg».proof.Proof.Gen.KernelIdeal.Frame
import proofs.«164157_j73057393705013_1_alg».proof.Proof.Gen.ReferenceIdeal
import proofs.«164157_j73057393705013_1_alg».proof.Proof.Gen.Pre_finite_inputs
import proofs.«164157_j73057393705013_1_alg».proof.Proof.RefRunP
import proofs.«164157_j73057393705013_1_alg».proof.Proof.RefLoss
import proofs.«164157_j73057393705013_1_alg».proof.Proof.FiniteInputs
import proofs.«164157_j73057393705013_1_alg».proof.Proof.KernelLoss
import proofs.«164157_j73057393705013_1_alg».proof.Proof.ERealLaws
import proofs.«164157_j73057393705013_1_alg».proof.Proof.LibFinite
import proofs.«164157_j73057393705013_1_alg».proof.Proof.LibBlockSum
import Idealize.ShloMosaic.Adequacy
import Idealize.ShloMosaic.Init

noncomputable section

namespace Cert.Proof

open Idealize.ShloMosaic Idealize.SL.Sem

/-- The kernel as printed runs, and leaves its two arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on P and T, whose entries are all finite, the idealized kernel ends at the reshape of the
    last block's guarded quotient and the idealized reference at its last stage; both are the loss of P and T. -/
theorem algebraic : Cert.algebraic_KernelIdeal_ReferenceIdeal := by
  intro m ρ m' ρ' hpre hagree
  refine ⟨fun c => Cert.KernelIdeal.KRun.scalarResult m c, Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hP, hT⟩ := Cert.FiniteInputs.real_of_pre _ _ (hpre c)
  rw [Cert.ReferenceIdeal.ValueP.val_main_v27_eq, Cert.RefLoss.ref_loss, (hagree c).1, (hagree c).2]
  exact (Cert.KernelIdeal.KLoss.scalar_eq m c hP hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
